-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x128x512 : Shape := ⟨3, ![4, 128, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x640 .f32) (main_arg5 : FVec F S640 .f32) (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S512x640 .f32 := Host.absf main_arg4
  let main_cst_6 : FVec F S_ .f32 := constant S_ .f32 0x7F800000#32
  let main_v20 : FVec F S512x640 .f32 := broadcastInDim S512x640 ![] bcast_S_S512x640 main_cst_6
  let main_v21 : IVec S512x640 1 := cmpf .olt main_v19 main_v20
  let main_c_7 : IVec S_ 1 := constantI S_ 1 1#1
  let main_v22 : IVec S_ 1 := (fun x v => Host.reduce IntOp.andi x v reducesTo_S512x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x1024 .f32 := Host.absf main_arg6
  let main_cst_10 : FVec F S_ .f32 := constant S_ .f32 0x7F800000#32
  let main_v30 : FVec F S640x1024 .f32 := broadcastInDim S640x1024 ![] bcast_S_S640x1024 main_cst_10
  let main_v31 : IVec S640x1024 1 := cmpf .olt main_v29 main_v30
  let main_c_11 : IVec S_ 1 := constantI S_ 1 1#1
  let main_v32 : IVec S_ 1 := (fun x v => Host.reduce IntOp.andi x v reducesTo_S640x1024_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x128x512 .f32) (main_arg2 : FVec F S512x640 .f32) (main_arg3 : FVec F S640 .f32) (main_arg4 : FVec F S512x640 .f32) (main_arg5 : FVec F S640 .f32) (main_arg6 : FVec F S640x1024 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x128x512 : Shape := ⟨3, ![4, 128, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S4x256x128x1024 : Shape := ⟨4, ![4, 256, 128, 1024]⟩
abbrev S1x8x512 : Shape := ⟨3, ![1, 8, 512]⟩
abbrev S1x128x512 : Shape := ⟨3, ![1, 128, 512]⟩
abbrev S1x8x128x1024 : Shape := ⟨4, ![1, 8, 128, 1024]⟩
abbrev S8x512 : Shape := ⟨2, ![8, 512]⟩
abbrev S128x512 : Shape := ⟨2, ![128, 512]⟩
abbrev S8x640 : Shape := ⟨2, ![8, 640]⟩
abbrev S1x640 : Shape := ⟨2, ![1, 640]⟩
abbrev S128x640 : Shape := ⟨2, ![128, 640]⟩
abbrev S8x1x640 : Shape := ⟨3, ![8, 1, 640]⟩
abbrev S1x128x640 : Shape := ⟨3, ![1, 128, 640]⟩
abbrev S8x128x640 : Shape := ⟨3, ![8, 128, 640]⟩
abbrev S1024x640 : Shape := ⟨2, ![1024, 640]⟩
abbrev S1024x1024 : Shape := ⟨2, ![1024, 1024]⟩
abbrev S1x1024 : Shape := ⟨2, ![1, 1024]⟩
abbrev S8x128x1024 : Shape := ⟨3, ![8, 128, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S512x640, .f32⟩
  | .hbm, ⟨3, _⟩ => ⟨S640, .f32⟩
  | .hbm, ⟨4, _⟩ => ⟨S512x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S4x256x512, .bf16⟩
  | .hbm, ⟨9, _⟩ => ⟨S4x128x512, .bf16⟩
  | .hbm, ⟨10, _⟩ => ⟨S512x640, .bf16⟩
  | .hbm, ⟨11, _⟩ => ⟨S512x640, .bf16⟩
  | .hbm, ⟨12, _⟩ => ⟨S640x1024, .bf16⟩
  | .hbm, ⟨13, _⟩ => ⟨S4x256x128x1024, .f32⟩
  | .local _ .vmem, ⟨0, _⟩ => ⟨S1x8x512, .bf16⟩
  | .local _ .vmem, ⟨1, _⟩ => ⟨S1x8x512, .bf16⟩
  | .local _ .vmem, ⟨2, _⟩ => ⟨S1x128x512, .bf16⟩
  | .local _ .vmem, ⟨3, _⟩ => ⟨S1x128x512, .bf16⟩
  | .local _ .vmem, ⟨4, _⟩ => ⟨S512x640, .bf16⟩
  | .local _ .vmem, ⟨5, _⟩ => ⟨S640, .f32⟩
  | .local _ .vmem, ⟨6, _⟩ => ⟨S512x640, .bf16⟩
  | .local _ .vmem, ⟨7, _⟩ => ⟨S640, .f32⟩
  | .local _ .vmem, ⟨8, _⟩ => ⟨S640x1024, .bf16⟩
  | .local _ .vmem, ⟨9, _⟩ => ⟨S1024, .f32⟩
  | .local _ .vmem, ⟨10, _⟩ => ⟨S1x8x128x1024, .f32⟩
  | .local _ .vmem, ⟨11, _⟩ => ⟨S1x8x128x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S640_S640_0 : ∀ a, (![0] : Fin 1 → Nat) a + S640.size a ≤ S640.size a
  h_S640 : 0 < S640.numel
  inb_S1024_S1024_0 : ∀ a, (![0] : Fin 1 → Nat) a + S1024.size a ≤ S1024.size a
  h_S1024 : 0 < S1024.numel
  shapeCasts_S640_S1x640 : S640.ShapeCasts S1x640
  broadcasts_S1x640_S8x640 : S1x640.Broadcasts S8x640
  broadcasts_S1x640_S128x640 : S1x640.Broadcasts S128x640
  shapeCasts_S8x640_S8x1x640 : S8x640.ShapeCasts S8x1x640
  shapeCasts_S128x640_S1x128x640 : S128x640.ShapeCasts S1x128x640
  broadcasts_S8x1x640_S8x128x640 : S8x1x640.Broadcasts S8x128x640
  broadcasts_S1x128x640_S8x128x640 : S1x128x640.Broadcasts S8x128x640
  shapeCasts_S8x128x640_S1024x640 : S8x128x640.ShapeCasts S1024x640
  shapeCasts_S1024_S1x1024 : S1024.ShapeCasts S1x1024
  broadcasts_S1x1024_S1024x1024 : S1x1024.Broadcasts S1024x1024
  shapeCasts_S1024x1024_S8x128x1024 : S1024x1024.ShapeCasts S8x128x1024
  inb_S1x8x128x1024_S1x8x128x1024_0_0_0_0 : ∀ a, (![0, 0, 0, 0] : Fin 4 → Nat) a + S1x8x128x1024.size a ≤ S1x8x128x1024.size a
  h_S1x8x128x1024 : 0 < S1x8x128x1024.numel
  shapeCasts_S1x8x128x1024_S8x128x1024 : S1x8x128x1024.ShapeCasts S8x128x1024
  shapeCasts_S8x128x1024_S1x8x128x1024 : S8x128x1024.ShapeCasts S1x8x128x1024
  dot_S8x512_S512x640_S8x640_1_0_0_1_n_n_wf : DotDims.WF S8x512 S512x640 S8x640 [1] [0] [0] [1] [] []
  dot_S128x512_S512x640_S128x640_1_0_0_1_n_n_wf : DotDims.WF S128x512 S512x640 S128x640 [1] [0] [0] [1] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S4x256x512.size a
  hwx0_0 : ∀ i : grid0.Coords, EltTy.bits .bf16 = 32 ∨ (Rect.block (s := S4x256x512) S1x8x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .bf16 = 32 ∨ (Rect.block (s := S4x128x512) S1x128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x640.size a ≤ S512x640.size a
  hwx0_4 : ∀ i : grid0.Coords, EltTy.bits .bf16 = 32 ∨ (Rect.block (s := S512x640) S512x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640.size a ≤ S640.size a
  hwx0_5 : ∀ i : grid0.Coords, EltTy.bits .f32 = 32 ∨ (Rect.block (s := S640) S640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x1024.size a ≤ S640x1024.size a
  hwx0_6 : ∀ i : grid0.Coords, EltTy.bits .bf16 = 32 ∨ (Rect.block (s := S640x1024) S640x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128x1024.size a ≤ S4x256x128x1024.size a
  hwx0_8 : ∀ i : grid0.Coords, EltTy.bits .f32 = 32 ∨ (Rect.block (s := S4x256x128x1024) S1x8x128x1024.size (cc0_transform_8 i) (hinb0_8 i)).WholeWords (EltTy.packing .f32)

variable [Facts₀]

def dot_S8x512_S512x640_S8x640_1_0_0_1_n_n : DotDims S8x512 S512x640 S8x640 where
  lhsContracting := [1]
  rhsContracting := [0]
  lhsNonContracting := [0]
  rhsNonContracting := [1]
  lhsBatch := []
  rhsBatch := []
  wf := dot_S8x512_S512x640_S8x640_1_0_0_1_n_n_wf
def dot_S128x512_S512x640_S128x640_1_0_0_1_n_n : DotDims S128x512 S512x640 S128x640 where
  lhsContracting := [1]
  rhsContracting := [0]
  lhsNonContracting := [0]
  rhsNonContracting := [1]
  lhsBatch := []
  rhsBatch := []
  wf := dot_S128x512_S512x640_S128x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_v0) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S640x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x8x128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x128x512 : Shape := ⟨3, ![4, 128, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S4x256x640 : Shape := ⟨3, ![4, 256, 640]⟩
abbrev S1x1x640 : Shape := ⟨3, ![1, 1, 640]⟩
abbrev S4x128x640 : Shape := ⟨3, ![4, 128, 640]⟩
abbrev S4x256x1x640 : Shape := ⟨4, ![4, 256, 1, 640]⟩
abbrev S4x1x128x640 : Shape := ⟨4, ![4, 1, 128, 640]⟩
abbrev S4x256x128x640 : Shape := ⟨4, ![4, 256, 128, 640]⟩
abbrev S4x256x128x1024 : Shape := ⟨4, ![4, 256, 128, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S512x640, .f32⟩
  | .hbm, ⟨3, _⟩ => ⟨S640, .f32⟩
  | .hbm, ⟨4, _⟩ => ⟨S512x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S4x256x640, .f32⟩
  | .hbm, ⟨9, _⟩ => ⟨S1x1x640, .f32⟩
  | .hbm, ⟨10, _⟩ => ⟨S4x256x640, .f32⟩
  | .hbm, ⟨11, _⟩ => ⟨S4x256x640, .f32⟩
  | .hbm, ⟨12, _⟩ => ⟨S4x128x640, .f32⟩
  | .hbm, ⟨13, _⟩ => ⟨S1x1x640, .f32⟩
  | .hbm, ⟨14, _⟩ => ⟨S4x128x640, .f32⟩
  | .hbm, ⟨15, _⟩ => ⟨S4x128x640, .f32⟩
  | .hbm, ⟨16, _⟩ => ⟨S4x256x1x640, .f32⟩
  | .hbm, ⟨17, _⟩ => ⟨S4x1x128x640, .f32⟩
  | .hbm, ⟨18, _⟩ => ⟨S4x256x128x640, .f32⟩
  | .hbm, ⟨19, _⟩ => ⟨S4x256x128x640, .f32⟩
  | .hbm, ⟨20, _⟩ => ⟨S4x256x128x640, .f32⟩
  | .hbm, ⟨21, _⟩ => ⟨S4x256x128x640, .f32⟩
  | .hbm, ⟨22, _⟩ => ⟨S4x256x128x1024, .f32⟩
  | .hbm, ⟨23, _⟩ => ⟨S1x1x1x1024, .f32⟩
  | .hbm, ⟨24, _⟩ => ⟨S4x256x128x1024, .f32⟩
  | .hbm, ⟨25, _⟩ => ⟨S4x256x128x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x256x640_0_1_2 : S1x1x640.BroadcastsInDim S4x256x640 (![0, 1, 2] : Fin 3 → Fin S4x256x640.rank)
  bcast_S1x1x640_S4x128x640_0_1_2 : S1x1x640.BroadcastsInDim S4x128x640 (![0, 1, 2] : Fin 3 → Fin S4x128x640.rank)
  bcast_S4x256x640_S4x256x1x640_0_1_3 : S4x256x640.BroadcastsInDim S4x256x1x640 (![0, 1, 3] : Fin 3 → Fin S4x256x1x640.rank)
  bcast_S4x128x640_S4x1x128x640_0_2_3 : S4x128x640.BroadcastsInDim S4x1x128x640 (![0, 2, 3] : Fin 3 → Fin S4x1x128x640.rank)
  bcast_S4x256x1x640_S4x256x128x640_0_1_2_3 : S4x256x1x640.BroadcastsInDim S4x256x128x640 (![0, 1, 2, 3] : Fin 4 → Fin S4x256x128x640.rank)
  bcast_S4x1x128x640_S4x256x128x640_0_1_2_3 : S4x1x128x640.BroadcastsInDim S4x256x128x640 (![0, 1, 2, 3] : Fin 4 → Fin S4x256x128x640.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  dot_S4x256x512_S512x640_S4x256x640_2_0_01_1_n_n_wf : DotDims.WF S4x256x512 S512x640 S4x256x640 [2] [0] [0, 1] [1] [] []
  dot_S4x128x512_S512x640_S4x128x640_2_0_01_1_n_n_wf : DotDims.WF S4x128x512 S512x640 S4x128x640 [2] [0] [0, 1] [1] [] []
  dot_S4x256x128x640_S640x1024_S4x256x128x1024_3_0_012_1_n_n_wf : DotDims.WF S4x256x128x640 S640x1024 S4x256x128x1024 [3] [0] [0, 1, 2] [1] [] []

variable [Facts₀]

def dot_S4x256x512_S512x640_S4x256x640_2_0_01_1_n_n : DotDims S4x256x512 S512x640 S4x256x640 where
  lhsContracting := [2]
  rhsContracting := [0]
  lhsNonContracting := [0, 1]
  rhsNonContracting := [1]
  lhsBatch := []
  rhsBatch := []
  wf := dot_S4x256x512_S512x640_S4x256x640_2_0_01_1_n_n_wf
def dot_S4x128x512_S512x640_S4x128x640_2_0_01_1_n_n : DotDims S4x128x512 S512x640 S4x128x640 where
  lhsContracting := [2]
  rhsContracting := [0]
  lhsNonContracting := [0, 1]
  rhsNonContracting := [1]
  lhsBatch := []
  rhsBatch := []
  wf := dot_S4x128x512_S512x640_S4x128x640_2_0_01_1_n_n_wf
def dot_S4x256x128x640_S640x1024_S4x256x128x1024_3_0_012_1_n_n : DotDims S4x256x128x640 S640x1024 S4x256x128x1024 where
  lhsContracting := [3]
  rhsContracting := [0]
  lhsNonContracting := [0, 1, 2]
  rhsNonContracting := [1]
  lhsBatch := []
  rhsBatch := []
  wf := dot_S4x256x128x640_S640x1024_S4x256x128x1024_3_0_012_1_n_n_wf

class Facts : Prop extends Facts₀ where

variable [Facts]
-- ==== Proof.BlockProducts.lean ====
/-
  The kernel body's three matrix products, read at an entry.

  Each is a plain rows × contraction by contraction × columns product on the matrix unit into an accumulator of zeros.
  At the exact values such a product is, at row p and column c, the sum over the contraction index e of L[p, e]·R[e, c]
  (nothing is rounded, and the order of a finite sum of extended reals does not matter).  The only work is to name the
  operand entries the product's dimension numbers select: the left operand at (p, e), the right at (e, c).
-/
import proofs.«146508_j22651657519326_1_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ### Eight encoder frames [8, 512] times the encoder weights [512, 640] -/

theorem encProd_lhs0 (i : S8x640.Idx) (q : dot_S8x512_S512x640_S8x640_1_0_0_1_n_n.contr.Idx) :
    (dot_S8x512_S512x640_S8x640_1_0_0_1_n_n.lhsIdx i q 0).val = (i 0).val := by
  unfold DotDims.lhsIdx
  rw [dif_neg (show ¬(0 : Fin S8x512.rank) ∈ dot_S8x512_S512x640_S8x640_1_0_0_1_n_n.lhsBatch by decide), dif_pos (show (0 : Fin S8x512.rank) ∈ dot_S8x512_S512x640_S8x640_1_0_0_1_n_n.lhsNonContracting by decide)]
  rfl
theorem encProd_lhs1 (i : S8x640.Idx) (q : dot_S8x512_S512x640_S8x640_1_0_0_1_n_n.contr.Idx) :
    (dot_S8x512_S512x640_S8x640_1_0_0_1_n_n.lhsIdx i q 1).val = (q ⟨0, by decide⟩).val :=
  dot_S8x512_S512x640_S8x640_1_0_0_1_n_n.lhsIdx_val_of_single rfl i q
theorem encProd_rhs0 (i : S8x640.Idx) (q : dot_S8x512_S512x640_S8x640_1_0_0_1_n_n.contr.Idx) :
    (dot_S8x512_S512x640_S8x640_1_0_0_1_n_n.rhsIdx i q 0).val = (q ⟨0, by decide⟩).val :=
  dot_S8x512_S512x640_S8x640_1_0_0_1_n_n.rhsIdx_val_of_single rfl i q
theorem encProd_rhs1 (i : S8x640.Idx) (q : dot_S8x512_S512x640_S8x640_1_0_0_1_n_n.contr.Idx) :
    (dot_S8x512_S512x640_S8x640_1_0_0_1_n_n.rhsIdx i q 1).val = (i 1).val := by
  unfold DotDims.rhsIdx
  rw [dif_neg (show ¬(1 : Fin S512x640.rank) ∈ dot_S8x512_S512x640_S8x640_1_0_0_1_n_n.rhsBatch by decide), dif_pos (show (1 : Fin S512x640.rank) ∈ dot_S8x512_S512x640_S8x640_1_0_0_1_n_n.rhsNonContracting by decide)]
  rfl

/-- Entry (p, c) of the product into a zero accumulator: Σ_e L[p, e]·R[e, c]. -/
theorem encProd_apply (L : FVec Ideal S8x512 .bf16) (R : FVec Ideal S512x640 .bf16) (p : Fin 8) (c : Fin 640) :
    matmul dot_S8x512_S512x640_S8x640_1_0_0_1_n_n none L R (constant (F := Ideal) S8x640 .f32 0x00000000#32) (ix2 p c)
      = ∑ e : Fin 512, L (ix2 p e) * R (ix2 e c) := by
  simp only [matmul]
  rw [Ideal.matmul_constant_zero_apply, ← Equiv.sum_comp (contrEquiv1 dot_S8x512_S512x640_S8x640_1_0_0_1_n_n 512 rfl rfl).symm]
  refine Finset.sum_congr rfl fun e _ => ?_
  have he := contrEquiv1_symm_val dot_S8x512_S512x640_S8x640_1_0_0_1_n_n 512 rfl rfl e
  have el : dot_S8x512_S512x640_S8x640_1_0_0_1_n_n.lhsIdx (ix2 p c) ((contrEquiv1 dot_S8x512_S512x640_S8x640_1_0_0_1_n_n 512 rfl rfl).symm e) = ix2 p e := funext fun a => Fin.ext (by
    match a with
    | ⟨0, _⟩ => exact encProd_lhs0 _ _
    | ⟨1, _⟩ => exact (encProd_lhs1 _ _).trans he)
  have er : dot_S8x512_S512x640_S8x640_1_0_0_1_n_n.rhsIdx (ix2 p c) ((contrEquiv1 dot_S8x512_S512x640_S8x640_1_0_0_1_n_n 512 rfl rfl).symm e) = ix2 e c := funext fun a => Fin.ext (by
    match a with
    | ⟨0, _⟩ => exact (encProd_rhs0 _ _).trans he
    | ⟨1, _⟩ => exact encProd_rhs1 _ _)
  rw [el, er]

/-! ### The 128 predictor positions [128, 512] times the predictor weights [512, 640] -/

theorem predProd_lhs0 (i : S128x640.Idx) (q : dot_S128x512_S512x640_S128x640_1_0_0_1_n_n.contr.Idx) :
    (dot_S128x512_S512x640_S128x640_1_0_0_1_n_n.lhsIdx i q 0).val = (i 0).val := by
  unfold DotDims.lhsIdx
  rw [dif_neg (show ¬(0 : Fin S128x512.rank) ∈ dot_S128x512_S512x640_S128x640_1_0_0_1_n_n.lhsBatch by decide), dif_pos (show (0 : Fin S128x512.rank) ∈ dot_S128x512_S512x640_S128x640_1_0_0_1_n_n.lhsNonContracting by decide)]
  rfl
theorem predProd_lhs1 (i : S128x640.Idx) (q : dot_S128x512_S512x640_S128x640_1_0_0_1_n_n.contr.Idx) :
    (dot_S128x512_S512x640_S128x640_1_0_0_1_n_n.lhsIdx i q 1).val = (q ⟨0, by decide⟩).val :=
  dot_S128x512_S512x640_S128x640_1_0_0_1_n_n.lhsIdx_val_of_single rfl i q
theorem predProd_rhs0 (i : S128x640.Idx) (q : dot_S128x512_S512x640_S128x640_1_0_0_1_n_n.contr.Idx) :
    (dot_S128x512_S512x640_S128x640_1_0_0_1_n_n.rhsIdx i q 0).val = (q ⟨0, by decide⟩).val :=
  dot_S128x512_S512x640_S128x640_1_0_0_1_n_n.rhsIdx_val_of_single rfl i q
theorem predProd_rhs1 (i : S128x640.Idx) (q : dot_S128x512_S512x640_S128x640_1_0_0_1_n_n.contr.Idx) :
    (dot_S128x512_S512x640_S128x640_1_0_0_1_n_n.rhsIdx i q 1).val = (i 1).val := by
  unfold DotDims.rhsIdx
  rw [dif_neg (show ¬(1 : Fin S512x640.rank) ∈ dot_S128x512_S512x640_S128x640_1_0_0_1_n_n.rhsBatch by decide), dif_pos (show (1 : Fin S512x640.rank) ∈ dot_S128x512_S512x640_S128x640_1_0_0_1_n_n.rhsNonContracting by decide)]
  rfl

/-- Entry (p, c) of the product into a zero accumulator: Σ_e L[p, e]·R[e, c]. -/
theorem predProd_apply (L : FVec Ideal S128x512 .bf16) (R : FVec Ideal S512x640 .bf16) (p : Fin 128) (c : Fin 640) :
    matmul dot_S128x512_S512x640_S128x640_1_0_0_1_n_n none L R (constant (F := Ideal) S128x640 .f32 0x00000000#32) (ix2 p c)
      = ∑ e : Fin 512, L (ix2 p e) * R (ix2 e c) := by
  simp only [matmul]
  rw [Ideal.matmul_constant_zero_apply, ← Equiv.sum_comp (contrEquiv1 dot_S128x512_S512x640_S128x640_1_0_0_1_n_n 512 rfl rfl).symm]
  refine Finset.sum_congr rfl fun e _ => ?_
  have he := contrEquiv1_symm_val dot_S128x512_S512x640_S128x640_1_0_0_1_n_n 512 rfl rfl e
  have el : dot_S128x512_S512x640_S128x640_1_0_0_1_n_n.lhsIdx (ix2 p c) ((contrEquiv1 dot_S128x512_S512x640_S128x640_1_0_0_1_n_n 512 rfl rfl).symm e) = ix2 p e := funext fun a => Fin.ext (by
    match a with
    | ⟨0, _⟩ => exact predProd_lhs0 _ _
    | ⟨1, _⟩ => exact (predProd_lhs1 _ _).trans he)
  have er : dot_S128x512_S512x640_S128x640_1_0_0_1_n_n.rhsIdx (ix2 p c) ((contrEquiv1 dot_S128x512_S512x640_S128x640_1_0_0_1_n_n 512 rfl rfl).symm e) = ix2 e c := funext fun a => Fin.ext (by
    match a with
    | ⟨0, _⟩ => exact (predProd_rhs0 _ _).trans he
    | ⟨1, _⟩ => exact predProd_rhs1 _ _)
  rw [el, er]

/-! ### The 8·128 hidden rows [1024, 640] times the joint weights [640, 1024] -/

theorem jointProd_lhs0 (i : S1024x1024.Idx) (q : dot_S1024x640_S640x1024_S1024x1024_1_0_0_1_n_n.contr.Idx) :
    (dot_S1024x640_S640x1024_S1024x1024_1_0_0_1_n_n.lhsIdx i q 0).val = (i 0).val := by
  unfold DotDims.lhsIdx
  rw [dif_neg (show ¬(0 : Fin S1024x640.rank) ∈ dot_S1024x640_S640x1024_S1024x1024_1_0_0_1_n_n.lhsBatch by decide), dif_pos (show (0 : Fin S1024x640.rank) ∈ dot_S1024x640_S640x1024_S1024x1024_1_0_0_1_n_n.lhsNonContracting by decide)]
  rfl
theorem jointProd_lhs1 (i : S1024x1024.Idx) (q : dot_S1024x640_S640x1024_S1024x1024_1_0_0_1_n_n.contr.Idx) :
    (dot_S1024x640_S640x1024_S1024x1024_1_0_0_1_n_n.lhsIdx i q 1).val = (q ⟨0, by decide⟩).val :=
  dot_S1024x640_S640x1024_S1024x1024_1_0_0_1_n_n.lhsIdx_val_of_single rfl i q
theorem jointProd_rhs0 (i : S1024x1024.Idx) (q : dot_S1024x640_S640x1024_S1024x1024_1_0_0_1_n_n.contr.Idx) :
    (dot_S1024x640_S640x1024_S1024x1024_1_0_0_1_n_n.rhsIdx i q 0).val = (q ⟨0, by decide⟩).val :=
  dot_S1024x640_S640x1024_S1024x1024_1_0_0_1_n_n.rhsIdx_val_of_single rfl i q
theorem jointProd_rhs1 (i : S1024x1024.Idx) (q : dot_S1024x640_S640x1024_S1024x1024_1_0_0_1_n_n.contr.Idx) :
    (dot_S1024x640_S640x1024_S1024x1024_1_0_0_1_n_n.rhsIdx i q 1).val = (i 1).val := by
  unfold DotDims.rhsIdx
  rw [dif_neg (show ¬(1 : Fin S640x1024.rank) ∈ dot_S1024x640_S640x1024_S1024x1024_1_0_0_1_n_n.rhsBatch by decide), dif_pos (show (1 : Fin S640x1024.rank) ∈ dot_S1024x640_S640x1024_S1024x1024_1_0_0_1_n_n.rhsNonContracting by decide)]
  rfl

/-- Entry (p, c) of the product into a zero accumulator: Σ_e L[p, e]·R[e, c]. -/
theorem jointProd_apply (L : FVec Ideal S1024x640 .bf16) (R : FVec Ideal S640x1024 .bf16) (p : Fin 1024) (c : Fin 1024) :
    matmul dot_S1024x640_S640x1024_S1024x1024_1_0_0_1_n_n none L R (constant (F := Ideal) S1024x1024 .f32 0x00000000#32) (ix2 p c)
      = ∑ e : Fin 640, L (ix2 p e) * R (ix2 e c) := by
  simp only [matmul]
  rw [Ideal.matmul_constant_zero_apply, ← Equiv.sum_comp (contrEquiv1 dot_S1024x640_S640x1024_S1024x1024_1_0_0_1_n_n 640 rfl rfl).symm]
  refine Finset.sum_congr rfl fun e _ => ?_
  have he := contrEquiv1_symm_val dot_S1024x640_S640x1024_S1024x1024_1_0_0_1_n_n 640 rfl rfl e
  have el : dot_S1024x640_S640x1024_S1024x1024_1_0_0_1_n_n.lhsIdx (ix2 p c) ((contrEquiv1 dot_S1024x640_S640x1024_S1024x1024_1_0_0_1_n_n 640 rfl rfl).symm e) = ix2 p e := funext fun a => Fin.ext (by
    match a with
    | ⟨0, _⟩ => exact jointProd_lhs0 _ _
    | ⟨1, _⟩ => exact (jointProd_lhs1 _ _).trans he)
  have er : dot_S1024x640_S640x1024_S1024x1024_1_0_0_1_n_n.rhsIdx (ix2 p c) ((contrEquiv1 dot_S1024x640_S640x1024_S1024x1024_1_0_0_1_n_n 640 rfl rfl).symm e) = ix2 e c := funext fun a => Fin.ext (by
    match a with
    | ⟨0, _⟩ => exact (jointProd_rhs0 _ _).trans he
    | ⟨1, _⟩ => exact jointProd_rhs1 _ _)
  rw [el, er]

end Cert.KernelIdeal.Products

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.LibRowBiasLattice.lean ====
/-
  Three readings at an index, at the exact values, for a kernel that adds a bias row to a matrix product and joins two
  such matrices over a lattice of row pairs.

  • A bias vector [c], kept as one row [1, c] and copied into every row of an [a, c] matrix, added to a matrix M:
    the entry at (p, d) is M[p, d] + bias[d].
  • Two matrices f : [a, c] and g : [b, c] joined over all row pairs: f with a unit axis in the middle [a, 1, c] and g with
    a unit axis in front [1, b, c], both copied out to [a, b, c], added, passed through tanh (and a change of float
    format, the identity on exact values), and the two leading axes merged to [n, c] with n = a·b: row p·b + q, column d
    holds tanh (f[p, d] + g[q, d]).
  • The same biased matrix [n, c], n = a·b, with its leading axis split to [a, b, c]: the entry at (p, q, d) is
    M[p·b + q, d] + bias[d].
-/
import Idealize.ShloMosaic.PureOps.Ideal
import Idealize.ShloMosaic.Lib.ValueLayout
import proofs.«146508_j22651657519326_1_alg».proof.Proof.LibFlattenBroadcast

noncomputable section

namespace Cert.LibRowBiasLattice

open Idealize.ShloMosaic Idealize.ShloMosaic.ValueIdx

/-- A matrix plus a bias vector copied into every row, read at (p, d): M[p, d] + bias[d]. -/
theorem addf_rowBias_apply {a c : ℕ} (M : FVec Ideal ⟨2, ![a, c]⟩ .f32) (bias : FVec Ideal ⟨1, ![c]⟩ .f32)
    (h1 : (⟨1, ![c]⟩ : Shape).ShapeCasts ⟨2, ![1, c]⟩) (h2 : (⟨2, ![1, c]⟩ : Shape).Broadcasts ⟨2, ![a, c]⟩)
    (p : Fin a) (d : Fin c) :
    addf M (broadcastTo ⟨2, ![a, c]⟩ (shapeCast ⟨2, ![1, c]⟩ bias h1) h2) (ix2 p d) = M (ix2 p d) + bias (ix1 d) := by
  rw [addf_apply, broadcastTo_1b_ab_apply, shapeCast_a_1a_apply]

/-- The lattice of row pairs, merged: row r = p·b + q, column d of the merged [n, c] matrix holds tanh (f[p, d] + g[q, d]). -/
theorem tanh_lattice_apply {a b c n : ℕ} {ψ : FTy} (f : FVec Ideal ⟨2, ![a, c]⟩ .f32) (g : FVec Ideal ⟨2, ![b, c]⟩ .f32)
    (h1 : (⟨2, ![a, c]⟩ : Shape).ShapeCasts ⟨3, ![a, 1, c]⟩) (h2 : (⟨3, ![a, 1, c]⟩ : Shape).Broadcasts ⟨3, ![a, b, c]⟩)
    (h3 : (⟨2, ![b, c]⟩ : Shape).ShapeCasts ⟨3, ![1, b, c]⟩) (h4 : (⟨3, ![1, b, c]⟩ : Shape).Broadcasts ⟨3, ![a, b, c]⟩)
    (hψ : ψ.bits < FTy.f32.bits) (h5 : (⟨3, ![a, b, c]⟩ : Shape).ShapeCasts ⟨2, ![n, c]⟩)
    (p : Fin a) (q : Fin b) (d : Fin c) (r : Fin n) (hr : r.val = p.val * b + q.val) :
    shapeCast ⟨2, ![n, c]⟩
        (truncf ψ (tanh (addf (broadcastTo ⟨3, ![a, b, c]⟩ (shapeCast ⟨3, ![a, 1, c]⟩ f h1) h2)
          (broadcastTo ⟨3, ![a, b, c]⟩ (shapeCast ⟨3, ![1, b, c]⟩ g h3) h4))) hψ : FVec Ideal ⟨3, ![a, b, c]⟩ ψ) h5 (ix2 r d)
      = Ideal.tanh (f (ix2 p d) + g (ix2 q d)) := by
  refine (Cert.LibFlattenBroadcast.shapeCast_abc_nc_apply _ h5 p q d r hr).trans ?_
  show Ideal.tanh ((broadcastTo ⟨3, ![a, b, c]⟩ (shapeCast ⟨3, ![a, 1, c]⟩ f h1) h2) (ix3 p q d)
      + (broadcastTo ⟨3, ![a, b, c]⟩ (shapeCast ⟨3, ![1, b, c]⟩ g h3) h4) (ix3 p q d)) = _
  rw [Cert.LibFlattenBroadcast.broadcastTo_a1c_abc_apply, Cert.LibFlattenBroadcast.broadcastTo_1bc_abc_apply,
    Cert.LibFlattenBroadcast.shapeCast_ac_a1c_apply, shapeCast_ab_1ab_apply]

/-- A biased [n, c] matrix, n = a·b, with its leading axis split to [a, b, c], read at (p, q, d): M[p·b + q, d] + bias[d]. -/
theorem split_rowBias_apply {a b c n : ℕ} (M : FVec Ideal ⟨2, ![n, c]⟩ .f32) (bias : FVec Ideal ⟨1, ![c]⟩ .f32)
    (h1 : (⟨1, ![c]⟩ : Shape).ShapeCasts ⟨2, ![1, c]⟩) (h2 : (⟨2, ![1, c]⟩ : Shape).Broadcasts ⟨2, ![n, c]⟩)
    (h3 : (⟨2, ![n, c]⟩ : Shape).ShapeCasts ⟨3, ![a, b, c]⟩)
    (p : Fin a) (q : Fin b) (d : Fin c) (r : Fin n) (hr : r.val = p.val * b + q.val) :
    shapeCast ⟨3, ![a, b, c]⟩ (addf M (broadcastTo ⟨2, ![n, c]⟩ (shapeCast ⟨2, ![1, c]⟩ bias h1) h2)) h3 (ix3 p q d)
      = M (ix2 r d) + bias (ix1 d) :=
  (Cert.LibFlattenBroadcast.shapeCast_nc_abc_apply _ h3 p q d r hr).trans (addf_rowBias_apply M bias h1 h2 r d)

end Cert.LibRowBiasLattice

end
-- ==== Proof.JointSpec.lean ====
/-
  The mathematics of the transducer joint network, stated once over the extended reals with no program in sight.

  For a batch entry b, an encoder frame t and a predictor position u the joint network
  • projects the encoder frame and the predictor position to 640 features each,
      f[d] = Σ_e enc[b,t,e]·W_enc[e,d] + b_enc[d],   g[d] = Σ_e pred[b,u,e]·W_pred[e,d] + b_pred[d];
  • adds the two projections and takes the hyperbolic tangent, h[d] = tanh (f[d] + g[d]);
  • projects the 640 hidden features to 1024 classes, out[v] = Σ_d h[d]·W_joint[d,v] + b_joint[v].
  The result array holds out[v] at (b, t, u, v).  Only sums, products and tanh of the entries occur, in this grouping,
  so no finiteness of the entries is needed to compare two programs that both compute it.
-/
import Idealize.ShloMosaic.PureOps.Ideal
import Idealize.ShloMosaic.Lib.ValueIdx

noncomputable section

namespace Cert.Joint

open Idealize.ShloMosaic Idealize.ShloMosaic.ValueIdx

/-- One projected feature: the row's inner product with column `d` of the weight matrix, plus the bias at `d`. -/
def proj (row : Fin 512 → EReal) (W : (⟨2, ![512, 640]⟩ : Shape).Idx → EReal) (bias : (⟨1, ![640]⟩ : Shape).Idx → EReal)
    (d : Fin 640) : EReal :=
  (∑ e : Fin 512, row e * W (ix2 e d)) + bias (ix1 d)

/-- One hidden feature: tanh of the sum of the encoder row's and the predictor row's projections. -/
def hidden (encRow predRow : Fin 512 → EReal)
    (Wenc : (⟨2, ![512, 640]⟩ : Shape).Idx → EReal) (benc : (⟨1, ![640]⟩ : Shape).Idx → EReal)
    (Wpred : (⟨2, ![512, 640]⟩ : Shape).Idx → EReal) (bpred : (⟨1, ![640]⟩ : Shape).Idx → EReal) (d : Fin 640) : EReal :=
  Ideal.tanh (proj encRow Wenc benc d + proj predRow Wpred bpred d)

/-- One class score: the hidden features' inner product with column `v` of the joint matrix, plus the bias at `v`. -/
def logit (encRow predRow : Fin 512 → EReal)
    (Wenc : (⟨2, ![512, 640]⟩ : Shape).Idx → EReal) (benc : (⟨1, ![640]⟩ : Shape).Idx → EReal)
    (Wpred : (⟨2, ![512, 640]⟩ : Shape).Idx → EReal) (bpred : (⟨1, ![640]⟩ : Shape).Idx → EReal)
    (Wjoint : (⟨2, ![640, 1024]⟩ : Shape).Idx → EReal) (bjoint : (⟨1, ![1024]⟩ : Shape).Idx → EReal) (v : Fin 1024) : EReal :=
  (∑ d : Fin 640, hidden encRow predRow Wenc benc Wpred bpred d * Wjoint (ix2 d v)) + bjoint (ix1 v)

/-- The whole result array [4, 256, 128, 1024] as one function of the eight argument arrays: at (b, t, u, v) the class
    score `v` of encoder frame (b, t) joined with predictor position (b, u). -/
def G (enc : (⟨3, ![4, 256, 512]⟩ : Shape).Idx → EReal) (pred : (⟨3, ![4, 128, 512]⟩ : Shape).Idx → EReal)
    (Wenc : (⟨2, ![512, 640]⟩ : Shape).Idx → EReal) (benc : (⟨1, ![640]⟩ : Shape).Idx → EReal)
    (Wpred : (⟨2, ![512, 640]⟩ : Shape).Idx → EReal) (bpred : (⟨1, ![640]⟩ : Shape).Idx → EReal)
    (Wjoint : (⟨2, ![640, 1024]⟩ : Shape).Idx → EReal) (bjoint : (⟨1, ![1024]⟩ : Shape).Idx → EReal) :
    (⟨4, ![4, 256, 128, 1024]⟩ : Shape).Idx → EReal :=
  fun i => logit (fun e => enc (ix3 (i 0) (i 1) e)) (fun e => pred (ix3 (i 0) (i 2) e)) Wenc benc Wpred bpred Wjoint bjoint (i 3)

/-- `G` at an index written by its four coordinates. -/
theorem G_ix4 (enc : (⟨3, ![4, 256, 512]⟩ : Shape).Idx → EReal) (pred : (⟨3, ![4, 128, 512]⟩ : Shape).Idx → EReal)
    (Wenc : (⟨2, ![512, 640]⟩ : Shape).Idx → EReal) (benc : (⟨1, ![640]⟩ : Shape).Idx → EReal)
    (Wpred : (⟨2, ![512, 640]⟩ : Shape).Idx → EReal) (bpred : (⟨1, ![640]⟩ : Shape).Idx → EReal)
    (Wjoint : (⟨2, ![640, 1024]⟩ : Shape).Idx → EReal) (bjoint : (⟨1, ![1024]⟩ : Shape).Idx → EReal)
    (b : Fin 4) (t : Fin 256) (u : Fin 128) (v : Fin 1024) :
    G enc pred Wenc benc Wpred bpred Wjoint bjoint (ix4 b t u v)
      = logit (fun e => enc (ix3 b t e)) (fun e => pred (ix3 b u e)) Wenc benc Wpred bpred Wjoint bjoint v := rfl

/-- `G` at any index whose four coordinates are known. -/
theorem G_of_coords (enc : (⟨3, ![4, 256, 512]⟩ : Shape).Idx → EReal) (pred : (⟨3, ![4, 128, 512]⟩ : Shape).Idx → EReal)
    (Wenc : (⟨2, ![512, 640]⟩ : Shape).Idx → EReal) (benc : (⟨1, ![640]⟩ : Shape).Idx → EReal)
    (Wpred : (⟨2, ![512, 640]⟩ : Shape).Idx → EReal) (bpred : (⟨1, ![640]⟩ : Shape).Idx → EReal)
    (Wjoint : (⟨2, ![640, 1024]⟩ : Shape).Idx → EReal) (bjoint : (⟨1, ![1024]⟩ : Shape).Idx → EReal)
    (i : (⟨4, ![4, 256, 128, 1024]⟩ : Shape).Idx) (b : Fin 4) (t : Fin 256) (u : Fin 128) (v : Fin 1024)
    (h0 : (i 0).val = b.val) (h1 : (i 1).val = t.val) (h2 : (i 2).val = u.val) (h3 : (i 3).val = v.val) :
    G enc pred Wenc benc Wpred bpred Wjoint bjoint i
      = logit (fun e => enc (ix3 b t e)) (fun e => pred (ix3 b u e)) Wenc benc Wpred bpred Wjoint bjoint v := by
  obtain rfl : i = ix4 b t u v := funext fun a => Fin.ext (by
    match a with
    | ⟨0, _⟩ => exact h0
    | ⟨1, _⟩ => exact h1
    | ⟨2, _⟩ => exact h2
    | ⟨3, _⟩ => exact h3)
  rfl

/-- A class score depends only on the entries of its two rows and on the six parameter arrays. -/
theorem logit_congr {encRow encRow' predRow predRow' : Fin 512 → EReal}
    {Wenc Wenc' : (⟨2, ![512, 640]⟩ : Shape).Idx → EReal} {benc benc' : (⟨1, ![640]⟩ : Shape).Idx → EReal}
    {Wpred Wpred' : (⟨2, ![512, 640]⟩ : Shape).Idx → EReal} {bpred bpred' : (⟨1, ![640]⟩ : Shape).Idx → EReal}
    {Wjoint Wjoint' : (⟨2, ![640, 1024]⟩ : Shape).Idx → EReal} {bjoint bjoint' : (⟨1, ![1024]⟩ : Shape).Idx → EReal}
    (hE : ∀ e, encRow e = encRow' e) (hP : ∀ e, predRow e = predRow' e) (h1 : Wenc = Wenc') (h2 : benc = benc')
    (h3 : Wpred = Wpred') (h4 : bpred = bpred') (h5 : Wjoint = Wjoint') (h6 : bjoint = bjoint') (v : Fin 1024) :
    logit encRow predRow Wenc benc Wpred bpred Wjoint bjoint v
      = logit encRow' predRow' Wenc' benc' Wpred' bpred' Wjoint' bjoint' v := by
  obtain rfl : encRow = encRow' := funext hE
  obtain rfl : predRow = predRow' := funext hP
  subst h1 h2 h3 h4 h5 h6
  rfl

end Cert.Joint

end
-- ==== Proof.BlockValue.lean ====
/-
  What the kernel body computes from its eight loaded blocks, read at one entry of its [8, 128, 1024] result.

  The body holds eight encoder frames [1, 8, 512], the 128 predictor positions [1, 128, 512] of the same batch entry, the
  three weight matrices and the three bias vectors.  It projects both blocks (a matrix product plus a bias row), joins the
  8 × 128 row pairs through tanh of the sum, merges the pairs into 1024 rows, multiplies by the joint matrix, adds the last
  bias row and splits the rows back into pairs.  Entry (p, q, v) of the result is therefore the class score v of frame p
  joined with position q: `Cert.Joint.logit` of row p of the encoder block and row q of the predictor block.
-/
import proofs.«146508_j22651657519326_1_alg».proof.Proof.Gen.KernelIdeal.Skeleton
import proofs.«146508_j22651657519326_1_alg».proof.Proof.BlockProducts
import proofs.«146508_j22651657519326_1_alg».proof.Proof.LibRowBiasLattice
import proofs.«146508_j22651657519326_1_alg».proof.Proof.JointSpec
import Idealize.ShloMosaic.Lib.Pipeline.Value

noncomputable section

namespace Cert.KernelIdeal.BlockValue

open Cert.KernelIdeal Cert.KernelIdeal.Gen Idealize.ShloMosaic Idealize.ShloMosaic.ValueIdx

/-- Entry (p, q, v) of the body's result is the class score of encoder row p joined with predictor row q. -/
theorem pay_at (P0 : Vec Ideal S1x8x512 .bf16) (P1 : Vec Ideal S1x128x512 .bf16) (P2 : Vec Ideal S512x640 .bf16)
    (P3 : Vec Ideal S512x640 .bf16) (P4 : Vec Ideal S640x1024 .bf16) (P5 : Vec Ideal S640 .f32) (P6 : Vec Ideal S640 .f32)
    (P7 : Vec Ideal S1024 .f32) (p : Fin 8) (q : Fin 128) (v : Fin 1024) :
    k0_pay2 (F := Ideal) P0 P1 P2 P3 P4 P5 P6 P7 (ix3 p q v)
      = Cert.Joint.logit (fun e => P0 (ix3 (0 : Fin 1) p e)) (fun e => P1 (ix3 (0 : Fin 1) q e)) P2 P5 P3 P6 P4 P7 v := by
  have hp : p.val < 8 := p.isLt
  have hq : q.val < 128 := q.isLt
  unfold k0_pay2
  refine (Cert.LibRowBiasLattice.split_rowBias_apply (n := 1024) _ P7 _ _ _ p q v ⟨p.val * 128 + q.val, by omega⟩ rfl).trans ?_
  unfold Cert.Joint.logit
  refine congrArg (· + P7 (ix1 v)) ?_
  refine (Products.jointProd_apply _ _ _ v).trans ?_
  refine Finset.sum_congr rfl fun d _ => ?_
  refine congrArg₂ (· * ·) ?_ (congrFun (shapeCast_self P4 _) (ix2 d v))
  refine (Cert.LibRowBiasLattice.tanh_lattice_apply (n := 1024) _ _ _ _ _ _ _ _ p q d ⟨p.val * 128 + q.val, by omega⟩ rfl).trans ?_
  unfold Cert.Joint.hidden Cert.Joint.proj
  rw [Cert.LibRowBiasLattice.addf_rowBias_apply, Cert.LibRowBiasLattice.addf_rowBias_apply, Products.encProd_apply,
    Products.predProd_apply]
  simp only [shapeCast_self, shapeCast_1ab_ab_apply]

end Cert.KernelIdeal.BlockValue

end
-- ==== Proof.GridValue.lean ====
/-
  From the blocks to the whole result array.

  The grid has 4 × 32 points.  Point (b, s) is handed frames 8s … 8s + 7 of batch entry b of the encoder array, all 128
  positions of batch entry b of the predictor array, the weight matrices and bias vectors whole, and writes back the block
  of the result array at batch entry b, frames 8s … 8s + 7 (all positions, all classes).  The encoder, predictor and weight
  arrays reach the region through a change of float format, which is the identity on exact values.  So what a point writes
  back is the joint network's function `Cert.Joint.G` of the argument arrays, read through the point's block; the 128
  blocks tile the result array (the block holding frame r of entry b is that of point (b, r / 8)), hence the array ends
  holding `G` of the argument arrays everywhere.
-/
import proofs.«146508_j22651657519326_1_alg».proof.Proof.Gen.KernelIdeal.Value
import proofs.«146508_j22651657519326_1_alg».proof.Proof.BlockValue
import Idealize.ShloMosaic.Lib.Pipeline.Value
import Idealize.ShloMosaic.Lib.StableHlo.Run

noncomputable section

namespace Cert.KernelIdeal.GridValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The joint network's function of the eight argument arrays as launched. -/
abbrev result (c : Dev nD) : S4x256x128x1024.Idx → EReal :=
  Cert.Joint.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The arrays the region finds: the arguments, their float format changed -/

theorem V_enc (c : Dev nD) :
    (V m c main_v0 : S4x256x512.Idx → EReal) = (m ((c : Thread nD τ).loc main_arg0) : S4x256x512.Idx → EReal) := by
  dsimp only [Gen.V, Gen.hostOps0]; after_results; rfl
theorem V_pred (c : Dev nD) :
    (V m c main_v1 : S4x128x512.Idx → EReal) = (m ((c : Thread nD τ).loc main_arg1) : S4x128x512.Idx → EReal) := by
  dsimp only [Gen.V, Gen.hostOps0]; after_results; rfl
theorem V_Wenc (c : Dev nD) :
    (V m c main_v2 : S512x640.Idx → EReal) = (m ((c : Thread nD τ).loc main_arg2) : S512x640.Idx → EReal) := by
  dsimp only [Gen.V, Gen.hostOps0]; after_results; rfl
theorem V_Wpred (c : Dev nD) :
    (V m c main_v3 : S512x640.Idx → EReal) = (m ((c : Thread nD τ).loc main_arg4) : S512x640.Idx → EReal) := by
  dsimp only [Gen.V, Gen.hostOps0]; after_results; rfl
theorem V_Wjoint (c : Dev nD) :
    (V m c main_v4 : S640x1024.Idx → EReal) = (m ((c : Thread nD τ).loc main_arg6) : S640x1024.Idx → EReal) := by
  dsimp only [Gen.V, Gen.hostOps0]; after_results; rfl

/-! ## The printed index maps, decided once over the 128 grid points -/

/-- The encoder window moves with the output window on the batch and frame axes; the predictor window on the batch axis
    only; the weight and bias windows never move; the output's block index is (b, s, 0, 0) with b ≤ 3, s ≤ 31. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (2 : Fin 4) = 0 ∧ win0_8.index t (3 : Fin 4) = 0
    ∧ win0_8.index t (0 : Fin 4) ≤ 3 ∧ win0_8.index t (1 : Fin 4) ≤ 31 :=
  (by decide +kernel : ∀ t : Fin grid0.N, _)

/-- Every block index (b, s, 0, 0) is some point's. -/
theorem idx_onto : ∀ (q0 : Fin 4) (q1 : Fin 32), ∃ t : Fin cfg0.N, win0_8.index t = ![q0.val, q1.val, 0, 0] :=
  (by decide +kernel : ∀ (q0 : Fin 4) (q1 : Fin 32), ∃ t : Fin grid0.N, win0_8.index t = ![q0.val, q1.val, 0, 0])

/-! ## Each input block, read off the argument it is a block of -/

/-- Row p of the point's encoder block is frame 8s + p of batch entry b of the encoder argument. -/
theorem enc_block (c : Dev nD) (t : Fin cfg0.N) (u : Fin 1) (p : Fin 8) (e : Fin 512) (i : S4x256x512.Idx)
    (h0 : (i 0).val = win0_8.index t (0 : Fin 4)) (h1 : (i 1).val = win0_8.index t (1 : Fin 4) * 8 + p.val)
    (h2 : (i 2).val = e.val) :
    (iblk m c 0 t : Vec Ideal S1x8x512 .bf16) (ix3 u p e) = (m ((c : Thread nD τ).loc main_arg0) : S4x256x512.Idx → EReal) i := by
  obtain ⟨e0, e1, e2, -⟩ := idx_facts t
  have hu : u.val < 1 := u.isLt
  show (V m c main_v0 : S4x256x512.Idx → EReal) (((cfg0.win 0).blk t).view.emb (ix3 u p e)) = _
  rw [V_enc]
  refine congrArg _ ?_
  funext a; apply Fin.ext
  match a with
  | ⟨0, _⟩ => show win0_0.index t (0 : Fin 3) * 1 + 1 * u.val = (i 0).val; omega
  | ⟨1, _⟩ => show win0_0.index t (1 : Fin 3) * 8 + 1 * p.val = (i 1).val; omega
  | ⟨2, _⟩ => show win0_0.index t (2 : Fin 3) * 512 + 1 * e.val = (i 2).val; omega

/-- Row q of the point's predictor block is position q of batch entry b of the predictor argument. -/
theorem pred_block (c : Dev nD) (t : Fin cfg0.N) (u : Fin 1) (q : Fin 128) (e : Fin 512) (i : S4x128x512.Idx)
    (h0 : (i 0).val = win0_8.index t (0 : Fin 4)) (h1 : (i 1).val = q.val) (h2 : (i 2).val = e.val) :
    (iblk m c 1 t : Vec Ideal S1x128x512 .bf16) (ix3 u q e) = (m ((c : Thread nD τ).loc main_arg1) : S4x128x512.Idx → EReal) i := by
  obtain ⟨-, -, -, e0, e1, e2, -⟩ := idx_facts t
  have hu : u.val < 1 := u.isLt
  show (V m c main_v1 : S4x128x512.Idx → EReal) (((cfg0.win 1).blk t).view.emb (ix3 u q e)) = _
  rw [V_pred]
  refine congrArg _ ?_
  funext a; apply Fin.ext
  match a with
  | ⟨0, _⟩ => show win0_1.index t (0 : Fin 3) * 1 + 1 * u.val = (i 0).val; omega
  | ⟨1, _⟩ => show win0_1.index t (1 : Fin 3) * 128 + 1 * q.val = (i 1).val; omega
  | ⟨2, _⟩ => show win0_1.index t (2 : Fin 3) * 512 + 1 * e.val = (i 2).val; omega

/-- The weight blocks are the weight arguments whole. -/
theorem Wenc_block (c : Dev nD) (t : Fin cfg0.N) :
    (iblk m c 2 t : Vec Ideal S512x640 .bf16) = (m ((c : Thread nD τ).loc main_arg2) : S512x640.Idx → EReal) := by
  obtain ⟨-, -, -, -, -, -, e0, e1, -⟩ := idx_facts t
  funext j
  have hj0 : (j 0).val < 512 := (j 0).isLt
  have hj1 : (j 1).val < 640 := (j 1).isLt
  show (V m c main_v2 : S512x640.Idx → EReal) (((cfg0.win 2).blk t).view.emb j) = _
  rw [V_Wenc]
  refine congrArg _ ?_
  funext a; apply Fin.ext
  match a with
  | ⟨0, _⟩ => show win0_2.index t (0 : Fin 2) * 512 + 1 * (j 0).val = (j 0).val; omega
  | ⟨1, _⟩ => show win0_2.index t (1 : Fin 2) * 640 + 1 * (j 1).val = (j 1).val; omega
theorem Wpred_block (c : Dev nD) (t : Fin cfg0.N) :
    (iblk m c 4 t : Vec Ideal S512x640 .bf16) = (m ((c : Thread nD τ).loc main_arg4) : S512x640.Idx → EReal) := by
  obtain ⟨-, -, -, -, -, -, -, -, -, e0, e1, -⟩ := idx_facts t
  funext j
  show (V m c main_v3 : S512x640.Idx → EReal) (((cfg0.win 4).blk t).view.emb j) = _
  rw [V_Wpred]
  refine congrArg _ ?_
  funext a; apply Fin.ext
  match a with
  | ⟨0, _⟩ => show win0_4.index t (0 : Fin 2) * 512 + 1 * (j 0).val = (j 0).val; omega
  | ⟨1, _⟩ => show win0_4.index t (1 : Fin 2) * 640 + 1 * (j 1).val = (j 1).val; omega
theorem Wjoint_block (c : Dev nD) (t : Fin cfg0.N) :
    (iblk m c 6 t : Vec Ideal S640x1024 .bf16) = (m ((c : Thread nD τ).loc main_arg6) : S640x1024.Idx → EReal) := by
  obtain ⟨-, -, -, -, -, -, -, -, -, -, -, -, e0, e1, -⟩ := idx_facts t
  funext j
  show (V m c main_v4 : S640x1024.Idx → EReal) (((cfg0.win 6).blk t).view.emb j) = _
  rw [V_Wjoint]
  refine congrArg _ ?_
  funext a; apply Fin.ext
  match a with
  | ⟨0, _⟩ => show win0_6.index t (0 : Fin 2) * 640 + 1 * (j 0).val = (j 0).val; omega
  | ⟨1, _⟩ => show win0_6.index t (1 : Fin 2) * 1024 + 1 * (j 1).val = (j 1).val; omega

/-- The bias blocks are the bias arguments whole. -/
theorem benc_block (c : Dev nD) (t : Fin cfg0.N) :
    (iblk m c 3 t : Vec Ideal S640 .f32) = (m ((c : Thread nD τ).loc main_arg3) : S640.Idx → EReal) := by
  obtain ⟨-, -, -, -, -, -, -, -, e0, -⟩ := idx_facts t
  funext j
  show (V m c main_arg3 : S640.Idx → EReal) (((cfg0.win 3).blk t).view.emb j) = _
  rw [V_main_arg3]
  refine congrArg _ ?_
  funext a; apply Fin.ext
  match a with
  | ⟨0, _⟩ => show win0_3.index t (0 : Fin 1) * 640 + 1 * (j 0).val = (j 0).val; omega
theorem bpred_block (c : Dev nD) (t : Fin cfg0.N) :
    (iblk m c 5 t : Vec Ideal S640 .f32) = (m ((c : Thread nD τ).loc main_arg5) : S640.Idx → EReal) := by
  obtain ⟨-, -, -, -, -, -, -, -, -, -, -, e0, -⟩ := idx_facts t
  funext j
  show (V m c main_arg5 : S640.Idx → EReal) (((cfg0.win 5).blk t).view.emb j) = _
  rw [V_main_arg5]
  refine congrArg _ ?_
  funext a; apply Fin.ext
  match a with
  | ⟨0, _⟩ => show win0_5.index t (0 : Fin 1) * 640 + 1 * (j 0).val = (j 0).val; omega
theorem bjoint_block (c : Dev nD) (t : Fin cfg0.N) :
    (iblk m c 7 t : Vec Ideal S1024 .f32) = (m ((c : Thread nD τ).loc main_arg7) : S1024.Idx → EReal) := by
  obtain ⟨-, -, -, -, -, -, -, -, -, -, -, -, -, -, e0, -⟩ := idx_facts t
  funext j
  show (V m c main_arg7 : S1024.Idx → EReal) (((cfg0.win 7).blk t).view.emb j) = _
  rw [V_main_arg7]
  refine congrArg _ ?_
  funext a; apply Fin.ext
  match a with
  | ⟨0, _⟩ => show win0_7.index t (0 : Fin 1) * 1024 + 1 * (j 0).val = (j 0).val; omega

/-! ## What a point leaves in the output block -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Entry y of the block point `t` leaves is the joint function of the arguments at the array index under y. -/
theorem out_at (c : Dev nD) (t : Fin cfg0.N) (y : S1x8x128x1024.Idx) :
    out0_8 (iblk m c 0 t) (iblk m c 1 t) (iblk m c 2 t) (iblk m c 3 t) (iblk m c 4 t) (iblk m c 5 t) (iblk m c 6 t) (iblk m c 7 t) y
      = result m c (((cfg0.win 8).blk t).view.emb y) := by
  obtain ⟨u0, p, q, v, rfl⟩ : ∃ (u0 : Fin 1) (p : Fin 8) (q : Fin 128) (v : Fin 1024), y = ix4 u0 p q v :=
    ⟨y 0, y 1, y 2, y 3, eq_ix4 y⟩
  have hf := idx_facts t
  have hu0 : u0.val < 1 := u0.isLt
  have hp : p.val < 8 := p.isLt
  unfold out0_8
  simp only [View.ld_unit_zero (S := S1x8x512) hz3, View.ld_unit_zero (S := S1x128x512) hz3, View.ld_unit_zero (S := S512x640) hz2,
    View.ld_unit_zero (S := S640x1024) hz2, View.ld_unit_zero (S := S640) hz1, View.ld_unit_zero (S := S1024) hz1]
  rw [Value.canon8_eq]
  show k0_pay2 _ _ _ _ _ _ _ _ (Value.ix8_0 (ix4 u0 p q v)) = _
  rw [show Value.ix8_0 (ix4 u0 p q v) = ix3 p q v from
    funext fun a => by match a with | ⟨0, _⟩ => rfl | ⟨1, _⟩ => rfl | ⟨2, _⟩ => rfl]
  rw [BlockValue.pay_at]
  refine Eq.trans ?_ (Cert.Joint.G_of_coords _ _ _ _ _ _ _ _ (((cfg0.win 8).blk t).view.emb (ix4 u0 p q v))
    ⟨win0_8.index t (0 : Fin 4), by omega⟩ ⟨win0_8.index t (1 : Fin 4) * 8 + p.val, by omega⟩ q v
    (by show win0_8.index t (0 : Fin 4) * 1 + 1 * u0.val = win0_8.index t (0 : Fin 4); omega)
    (by show win0_8.index t (1 : Fin 4) * 8 + 1 * p.val = win0_8.index t (1 : Fin 4) * 8 + p.val; omega)
    (by show win0_8.index t (2 : Fin 4) * 128 + 1 * q.val = q.val; omega)
    (by show win0_8.index t (3 : Fin 4) * 1024 + 1 * v.val = v.val; omega)).symm
  exact Cert.Joint.logit_congr
    (fun e => enc_block m c t 0 p e _ rfl rfl rfl) (fun e => pred_block m c t 0 q e _ rfl rfl rfl)
    (Wenc_block m c t) (benc_block m c t) (Wpred_block m c t) (bpred_block m c t) (Wjoint_block m c t) (bjoint_block m c t) v

/-- WHAT POINT `t` WRITES BACK is its block of the joint function of the arguments. -/
theorem flushed_eq (c : Dev nD) (t : Fin cfg0.N) :
    (dats m 0 c).flushed 8 t = ((cfg0.win 8).blk t).view.read (Elt Ideal) (result m c) := by
  rw [Value.flushed8]
  exact funext fun y => out_at m c t y

/-! ## The blocks tile the result array -/

/-- An index of the result array is in point `t`'s block iff each coordinate is in the block's range on its axis. -/
theorem mem_blk (t : Fin cfg0.N) (i : S4x256x128x1024.Idx) :
    i ∈ ((cfg0.win 8).blk t).view.set ↔ ∀ a : Fin 4, win0_8.index t a * S1x8x128x1024.size a ≤ (i a).val
      ∧ (i a).val < win0_8.index t a * S1x8x128x1024.size a + S1x8x128x1024.size a := by
  show i ∈ ((View.whole main_v5).slice (win0_8.rect t)).set ↔ _
  rw [View.set_slice_whole, Rect.mem_set_unit]
  exact Iff.rfl

/-- Frame r of batch entry b lies in the block of the point whose block index is (b, r / 8, 0, 0). -/
theorem cover (i : S4x256x128x1024.Idx) :
    ∃ t : Fin cfg0.N, (cfg0.win 8).flush t = true ∧ i ∈ ((cfg0.win 8).blk t).view.set := by
  have hi0 : (i 0).val < 4 := (i 0).isLt
  have hi1 : (i 1).val < 256 := (i 1).isLt
  have hi2 : (i 2).val < 128 := (i 2).isLt
  have hi3 : (i 3).val < 1024 := (i 3).isLt
  obtain ⟨t, ht⟩ := idx_onto ⟨(i 0).val, hi0⟩ ⟨(i 1).val / 8, by omega⟩
  have q0 : win0_8.index t (0 : Fin 4) = (i 0).val := congrFun ht 0
  have q1 : win0_8.index t (1 : Fin 4) = (i 1).val / 8 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 8 ≤ (i 1).val ∧ (i 1).val < win0_8.index t (1 : Fin 4) * 8 + 8; omega
  | ⟨2, _⟩ => show win0_8.index t (2 : Fin 4) * 128 ≤ (i 2).val ∧ (i 2).val < win0_8.index t (2 : Fin 4) * 128 + 128; omega
  | ⟨3, _⟩ => show win0_8.index t (3 : Fin 4) * 1024 ≤ (i 3).val ∧ (i 3).val < win0_8.index t (3 : Fin 4) * 1024 + 1024; omega

/-- THE RESULT ARRAY after the run is the joint function of the argument arrays. -/
theorem final (c : Dev nD) : (dats m 0 c).arrAt 8 cfg0.N = result m c :=
  (dats m 0 c).arrAt_eq_of_cover 8 (result m c) (fun t _ => flushed_eq m c t) cover

/-! ## The run, read -/

/-- Every weakly fair execution of the kernel's program ends with the result array at the joint function of the
    arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.GridValue

end
-- ==== Proof.RefIsJoint.lean ====
/-
  The reference computes the joint network's function `Cert.Joint.G`.

  Its program is two einsums with biases (the projections, [4,256,640] and [4,128,640]), the two projections copied out
  over the lattice [4,256,128,640] by unit axes and broadcasts, their sum, tanh, a third einsum against the joint matrix
  and the last bias.  Read at (b, t, u, v) one operation at a time, every broadcast only forgets the coordinate it copies
  along, so the entry is Σ_d tanh (f[b,t,d] + g[b,u,d])·W_joint[d,v] + b_joint[v] with f and g the biased inner products
  of `Cert.Joint.proj`: literally `G`.
-/
import proofs.«146508_j22651657519326_1_alg».proof.Proof.Gen.ReferenceIdeal.Read
import proofs.«146508_j22651657519326_1_alg».proof.Proof.JointSpec

noncomputable section

namespace Cert.ReferenceIdeal.RefValue

open Cert.ReferenceIdeal Cert.ReferenceIdeal.Read Idealize.ShloMosaic Idealize.ShloMosaic.ValueIdx

/-- The encoder projection's operand indices under the lattice entry (b, t, u, d): row (b, t) of the encoder array, column
    d of its weight matrix. -/
theorem enc_l (b : Fin 4) (t : Fin 256) (u : Fin 128) (d : Fin 640) (k : Fin 512) :
    lidx_main_v0 (idx_main_v8 (idx_main_v10 (ix4 b t u d))) k = ix3 b t k :=
  funext fun a => by match a with | ⟨0, _⟩ => rfl | ⟨1, _⟩ => rfl | ⟨2, _⟩ => rfl
theorem enc_r (b : Fin 4) (t : Fin 256) (u : Fin 128) (d : Fin 640) (k : Fin 512) :
    ridx_main_v0 (idx_main_v8 (idx_main_v10 (ix4 b t u d))) k = ix2 k d :=
  funext fun a => by match a with | ⟨0, _⟩ => rfl | ⟨1, _⟩ => rfl
theorem enc_b (b : Fin 4) (t : Fin 256) (u : Fin 128) (d : Fin 640) :
    idx_main_v1 (idx_main_v2 (idx_main_v8 (idx_main_v10 (ix4 b t u d)))) = ix1 d :=
  funext fun a => by match a with | ⟨0, _⟩ => rfl

/-- The predictor projection's operand indices under the lattice entry (b, t, u, d): row (b, u) of the predictor array. -/
theorem pred_l (b : Fin 4) (t : Fin 256) (u : Fin 128) (d : Fin 640) (k : Fin 512) :
    lidx_main_v4 (idx_main_v9 (idx_main_v11 (ix4 b t u d))) k = ix3 b u k :=
  funext fun a => by match a with | ⟨0, _⟩ => rfl | ⟨1, _⟩ => rfl | ⟨2, _⟩ => rfl
theorem pred_r (b : Fin 4) (t : Fin 256) (u : Fin 128) (d : Fin 640) (k : Fin 512) :
    ridx_main_v4 (idx_main_v9 (idx_main_v11 (ix4 b t u d))) k = ix2 k d :=
  funext fun a => by match a with | ⟨0, _⟩ => rfl | ⟨1, _⟩ => rfl
theorem pred_b (b : Fin 4) (t : Fin 256) (u : Fin 128) (d : Fin 640) :
    idx_main_v5 (idx_main_v6 (idx_main_v9 (idx_main_v11 (ix4 b t u d)))) = ix1 d :=
  funext fun a => by match a with | ⟨0, _⟩ => rfl

/-- The hidden activation the reference holds at lattice entry (b, t, u, d). -/
theorem hidden_at (x0 : FVec Ideal S4x256x512 .f32) (x1 : FVec Ideal S4x128x512 .f32) (x2 : FVec Ideal S512x640 .f32)
    (x3 : FVec Ideal S640 .f32) (x4 : FVec Ideal S512x640 .f32) (x5 : FVec Ideal S640 .f32)
    (b : Fin 4) (t : Fin 256) (u : Fin 128) (d : Fin 640) :
    val_main_v13 (F := Ideal) x0 x1 x2 x3 x4 x5 (ix4 b t u d)
      = Cert.Joint.hidden (fun e => x0 (ix3 b t e)) (fun e => x1 (ix3 b u e)) x2 x3 x4 x5 d := by
  rw [val_main_v13_apply, val_main_v12_apply, val_main_v10_apply, val_main_v8_apply, val_main_v3_apply, val_main_v0_apply,
    val_main_v2_apply, val_main_v1_apply, val_main_v11_apply, val_main_v9_apply, val_main_v7_apply, val_main_v4_apply,
    val_main_v6_apply, val_main_v5_apply]
  simp only [enc_l, enc_r, enc_b, pred_l, pred_r, pred_b]
  rfl

/-- The last einsum's operand indices at (b, t, u, v): lattice entry (b, t, u, k), and row k, column v of the joint matrix. -/
theorem out_l (b : Fin 4) (t : Fin 256) (u : Fin 128) (v : Fin 1024) (k : Fin 640) :
    lidx_main_v14 (ix4 b t u v) k = ix4 b t u k :=
  funext fun a => by match a with | ⟨0, _⟩ => rfl | ⟨1, _⟩ => rfl | ⟨2, _⟩ => rfl | ⟨3, _⟩ => rfl
theorem out_r (b : Fin 4) (t : Fin 256) (u : Fin 128) (v : Fin 1024) (k : Fin 640) :
    ridx_main_v14 (ix4 b t u v) k = ix2 k v :=
  funext fun a => by match a with | ⟨0, _⟩ => rfl | ⟨1, _⟩ => rfl
theorem out_b (b : Fin 4) (t : Fin 256) (u : Fin 128) (v : Fin 1024) :
    idx_main_v15 (idx_main_v16 (ix4 b t u v)) = ix1 v :=
  funext fun a => by match a with | ⟨0, _⟩ => rfl

/-- The reference's result, as a function of its eight arguments, is the joint network's function. -/
theorem ref_eq_joint (x0 : FVec Ideal S4x256x512 .f32) (x1 : FVec Ideal S4x128x512 .f32) (x2 : FVec Ideal S512x640 .f32)
    (x3 : FVec Ideal S640 .f32) (x4 : FVec Ideal S512x640 .f32) (x5 : FVec Ideal S640 .f32)
    (x6 : FVec Ideal S640x1024 .f32) (x7 : FVec Ideal S1024 .f32) :
    val_main_v17 (F := Ideal) x0 x1 x2 x3 x4 x5 x6 x7 = Cert.Joint.G x0 x1 x2 x3 x4 x5 x6 x7 := by
  funext i
  obtain ⟨b, t, u, v, rfl⟩ : ∃ (b : Fin 4) (t : Fin 256) (u : Fin 128) (v : Fin 1024), i = ix4 b t u v :=
    ⟨i 0, i 1, i 2, i 3, eq_ix4 i⟩
  rw [Cert.Joint.G_ix4, val_main_v17_apply, val_main_v14_apply, val_main_v16_apply, val_main_v15_apply]
  simp only [out_l, out_r, out_b, hidden_at]
  rfl

end Cert.ReferenceIdeal.RefValue

end
-- ==== Proof.lean ====
/-
  The transducer joint network: a fused kernel against its einsum reference, equal as extended reals.

  Both programs compute, at (b, t, u, v),
      Σ_d tanh ((Σ_e enc[b,t,e]·W_enc[e,d] + b_enc[d]) + (Σ_e pred[b,u,e]·W_pred[e,d] + b_pred[d]))·W_joint[d,v] + b_joint[v]
  (`Cert.Joint.G`, Proof/JointSpec.lean).  The kernel does it block by block: each of the 4 × 32 grid points takes eight
  encoder frames and the 128 predictor positions of one batch entry, forms the 8 × 128 lattice of hidden vectors and
  multiplies the 1024 rows by the joint matrix at once; its changes of float format are the identity on exact values and
  its matrix products into zero accumulators are plain finite sums (Proof/BlockProducts.lean, Proof/BlockValue.lean); the
  blocks tile the result array (Proof/GridValue.lean).  The reference does it with three einsums and broadcasts over the
  whole lattice (Proof/RefIsJoint.lean).  The two sides are the same sums of the same products in the same grouping, so
  the precondition (finite inputs) is never used.  The idealization rewrote no operation of the kernel, so the
  preservation claim has no conjunct.
-/
import proofs.«146508_j22651657519326_1_alg».proof.Defs
import proofs.«146508_j22651657519326_1_alg».proof.Proof.Gen.Kernel
import proofs.«146508_j22651657519326_1_alg».proof.Proof.Gen.Kernel.Skeleton
import proofs.«146508_j22651657519326_1_alg».proof.Proof.Gen.Kernel.Launch
import proofs.«146508_j22651657519326_1_alg».proof.Proof.Gen.Kernel.Points
import proofs.«146508_j22651657519326_1_alg».proof.Proof.Gen.Kernel.Frame
import proofs.«146508_j22651657519326_1_alg».proof.Proof.Gen.KernelIdeal
import proofs.«146508_j22651657519326_1_alg».proof.Proof.Gen.KernelIdeal.Skeleton
import proofs.«146508_j22651657519326_1_alg».proof.Proof.Gen.KernelIdeal.Launch
import proofs.«146508_j22651657519326_1_alg».proof.Proof.Gen.KernelIdeal.Points
import proofs.«146508_j22651657519326_1_alg».proof.Proof.Gen.KernelIdeal.Frame
import proofs.«146508_j22651657519326_1_alg».proof.Proof.Gen.ReferenceIdeal
import proofs.«146508_j22651657519326_1_alg».proof.Proof.Gen.Pre_finite_inputs
import proofs.«146508_j22651657519326_1_alg».proof.Proof.Gen.KernelIdeal.Value
import proofs.«146508_j22651657519326_1_alg».proof.Proof.Gen.ReferenceIdeal.Run
import proofs.«146508_j22651657519326_1_alg».proof.Proof.Gen.ReferenceIdeal.Read
import proofs.«146508_j22651657519326_1_alg».proof.Proof.GridValue
import proofs.«146508_j22651657519326_1_alg».proof.Proof.RefIsJoint
import Idealize.ShloMosaic.Adequacy
import Idealize.ShloMosaic.Init

noncomputable section

namespace Cert.Proof

open Idealize.ShloMosaic Idealize.SL.Sem

/-- The kernel's program as printed runs to the end, nothing faulting, its arguments unchanged. -/
theorem frame_kernel : Cert.frame_Kernel := fun m ρ _ => Cert.Kernel.Gen.frame m ρ

/-- So does the kernel's program read at the exact values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories that agree on the eight arguments both programs end with the result array at the joint network's
    function of those arguments: the kernel block by block, the reference by its three einsums. -/
theorem algebraic : Cert.algebraic_KernelIdeal_ReferenceIdeal := by
  intro m ρ m' ρ' _ hagree
  refine ⟨fun c => Cert.KernelIdeal.GridValue.result m c, Cert.KernelIdeal.GridValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq_joint]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
